-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x64x8192 : Shape := ⟨4, ![4, 8, 64, 8192]⟩
abbrev S_ : Shape := ⟨0, ![]⟩

class Facts : Prop where
  bcast_S_S4x8x64x8192 : S_.BroadcastsInDim S4x8x64x8192 (![] : Fin 0 → Fin S4x8x64x8192.rank)
  reducesTo_S4x8x64x8192_S_d0_1_2_3 : S4x8x64x8192.ReducesTo [0, 1, 2, 3] S_
  h_S_ : 0 < S_.numel

variable [Facts]

def fn {F : FTy → Type} [FloatOps F] (main_arg0 : FVec F S4x8x64x8192 .f32) (main_arg1 : FVec F S4x8x64x8192 .f32) (main_arg2 : FVec F S4x8x64x8192 .f32) : IVec S_ 1 :=
  let main_v0 : FVec F S4x8x64x8192 .f32 := Host.absf main_arg0
  let main_cst : FVec F S_ .f32 := constant S_ .f32 0x7F800000#32
  let main_v1 : FVec F S4x8x64x8192 .f32 := broadcastInDim S4x8x64x8192 ![] bcast_S_S4x8x64x8192 main_cst
  let main_v2 : IVec S4x8x64x8192 1 := cmpf .olt main_v0 main_v1
  let main_c : IVec S_ 1 := constantI S_ 1 1#1
  let main_v3 : IVec S_ 1 := (fun x v => Host.reduce IntOp.andi x v reducesTo_S4x8x64x8192_S_d0_1_2_3 h_S_) main_v2 main_c
  let main_v4 : FVec F S4x8x64x8192 .f32 := Host.absf main_arg1
  let main_cst_0 : FVec F S_ .f32 := constant S_ .f32 0x7F800000#32
  let main_v5 : FVec F S4x8x64x8192 .f32 := broadcastInDim S4x8x64x8192 ![] bcast_S_S4x8x64x8192 main_cst_0
  let main_v6 : IVec S4x8x64x8192 1 := cmpf .olt main_v4 main_v5
  let main_c_1 : IVec S_ 1 := constantI S_ 1 1#1
  let main_v7 : IVec S_ 1 := (fun x v => Host.reduce IntOp.andi x v reducesTo_S4x8x64x8192_S_d0_1_2_3 h_S_) main_v6 main_c_1
  let main_v8 : IVec S_ 1 := andi main_v3 main_v7
  let main_v9 : FVec F S4x8x64x8192 .f32 := Host.absf main_arg2
  let main_cst_2 : FVec F S_ .f32 := constant S_ .f32 0x7F800000#32
  let main_v10 : FVec F S4x8x64x8192 .f32 := broadcastInDim S4x8x64x8192 ![] bcast_S_S4x8x64x8192 main_cst_2
  let main_v11 : IVec S4x8x64x8192 1 := cmpf .olt main_v9 main_v10
  let main_c_3 : IVec S_ 1 := constantI S_ 1 1#1
  let main_v12 : IVec S_ 1 := (fun x v => Host.reduce IntOp.andi x v reducesTo_S4x8x64x8192_S_d0_1_2_3 h_S_) main_v11 main_c_3
  let main_v13 : IVec S_ 1 := andi main_v8 main_v12
  main_v13
-- ==== Kernel.lean ====
abbrev S4x8x64x8192 : Shape := ⟨4, ![4, 8, 64, 8192]⟩
abbrev S32x64x8192 : Shape := ⟨3, ![32, 64, 8192]⟩
abbrev S1x64x8192 : Shape := ⟨3, ![1, 64, 8192]⟩
abbrev S64x8192 : Shape := ⟨2, ![64, 8192]⟩
abbrev S8192 : Shape := ⟨1, ![8192]⟩
abbrev S1x8192 : Shape := ⟨2, ![1, 8192]⟩
abbrev S64 : Shape := ⟨1, ![64]⟩
abbrev S64x1 : Shape := ⟨2, ![64, 1]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x8x64x8192, .f32⟩
  | .hbm, ⟨1, _⟩ => ⟨S4x8x64x8192, .f32⟩
  | .hbm, ⟨2, _⟩ => ⟨S4x8x64x8192, .f32⟩
  | .hbm, ⟨3, _⟩ => ⟨S32x64x8192, .f32⟩
  | .hbm, ⟨4, _⟩ => ⟨S32x64x8192, .f32⟩
  | .hbm, ⟨5, _⟩ => ⟨S32x64x8192, .f32⟩
  | .hbm, ⟨6, _⟩ => ⟨S32x64x8192, .f32⟩
  | .hbm, ⟨7, _⟩ => ⟨S4x8x64x8192, .f32⟩
  | .local _ .vmem, ⟨0, _⟩ => ⟨S1x64x8192, .f32⟩
  | .local _ .vmem, ⟨1, _⟩ => ⟨S1x64x8192, .f32⟩
  | .local _ .vmem, ⟨2, _⟩ => ⟨S1x64x8192, .f32⟩
  | .local _ .vmem, ⟨3, _⟩ => ⟨S1x64x8192, .f32⟩
  | .local _ .vmem, ⟨4, _⟩ => ⟨S1x64x8192, .f32⟩
  | .local _ .vmem, ⟨5, _⟩ => ⟨S1x64x8192, .f32⟩
  | .local _ .vmem, ⟨6, _⟩ => ⟨S1x64x8192, .f32⟩
  | .local _ .vmem, ⟨7, _⟩ => ⟨S1x64x8192, .f32⟩
  | _, _ => ⟨S4x8x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8x64x8192_S32x64x8192 : S4x8x64x8192.ShapeCasts S32x64x8192
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  reduces_S64x8192_S8192 : S64x8192.Reduces [0] S8192
  shapeCasts_S8192_S1x8192 : S8192.ShapeCasts S1x8192
  broadcasts_S1x8192_S64x8192 : S1x8192.Broadcasts S64x8192
  reduces_S64x8192_S64 : S64x8192.Reduces [1] S64
  shapeCasts_S64_S64x1 : S64.ShapeCasts S64x1
  broadcasts_S64x1_S64x8192 : S64x1.Broadcasts S64x8192
  bitsLt_bf16_f32 : FTy.bits .bf16 < FTy.bits .f32
  shapeCasts_S64x8192_S1x64x8192 : S64x8192.ShapeCasts S1x64x8192
  shapeCasts_S32x64x8192_S4x8x64x8192 : S32x64x8192.ShapeCasts S4x8x64x8192
  dot_S64x8192_S64x8192_S64x64_1_1_0_0_n_n_wf : DotDims.WF S64x8192 S64x8192 S64x64 [1] [1] [0] [0] [] []
  dot_S64x64_S64x8192_S64x8192_0_0_1_1_n_n_wf : DotDims.WF S64x64 S64x8192 S64x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S32x64x8192.size a
  hwx0_0 : ∀ i : grid0.Coords, EltTy.bits .f32 = 32 ∨ (Rect.block (s := S32x64x8192) S1x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x8192.size a ≤ S32x64x8192.size a
  hwx0_1 : ∀ i : grid0.Coords, EltTy.bits .f32 = 32 ∨ (Rect.block (s := S32x64x8192) S1x64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x8192.size a ≤ S32x64x8192.size a
  hwx0_2 : ∀ i : grid0.Coords, EltTy.bits .f32 = 32 ∨ (Rect.block (s := S32x64x8192) S1x64x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x8192.size a ≤ S32x64x8192.size a
  hwx0_3 : ∀ i : grid0.Coords, EltTy.bits .f32 = 32 ∨ (Rect.block (s := S32x64x8192) S1x64x8192.size (cc0_transform_3 i) (hinb0_3 i)).WholeWords (EltTy.packing .f32)

variable [Facts₀]

def dot_S64x8192_S64x8192_S64x64_1_1_0_0_n_n : DotDims S64x8192 S64x8192 S64x64 where
  lhsContracting := [1]
  rhsContracting := [1]
  lhsNonContracting := [0]
  rhsNonContracting := [0]
  lhsBatch := []
  rhsBatch := []
  wf := dot_S64x8192_S64x8192_S64x64_1_1_0_0_n_n_wf
def dot_S64x64_S64x8192_S64x8192_0_0_1_1_n_n : DotDims S64x64 S64x8192 S64x8192 where
  lhsContracting := [0]
  rhsContracting := [0]
  lhsNonContracting := [1]
  rhsNonContracting := [1]
  lhsBatch := []
  rhsBatch := []
  wf := dot_S64x64_S64x8192_S64x8192_0_0_1_1_n_n_wf

abbrev win0_0 : Pipeline.Window sig grid0 :=
  Pipeline.Window.ofSpec (Memref.whole main_v0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x64x8192 : Shape := ⟨4, ![4, 8, 64, 8192]⟩
abbrev S_ : Shape := ⟨0, ![]⟩
abbrev S4x8x8192 : Shape := ⟨3, ![4, 8, 8192]⟩
abbrev S4x8x1x8192 : Shape := ⟨4, ![4, 8, 1, 8192]⟩
abbrev S4x8x64 : Shape := ⟨3, ![4, 8, 64]⟩
abbrev S4x8x64x1 : Shape := ⟨4, ![4, 8, 64, 1]⟩
abbrev S4x8x64x64 : Shape := ⟨4, ![4, 8, 64, 64]⟩

abbrev nBuf : Space → Nat
  | .hbm => 36
  | .vmem => 0
  | .smem => 0
  | _ => 0

abbrev bufTy : (tb : Table) → Fin (tcTables nBuf tb) → BufTy
  | .hbm, ⟨0, _⟩ => ⟨S4x8x64x8192, .f32⟩
  | .hbm, ⟨1, _⟩ => ⟨S4x8x64x8192, .f32⟩
  | .hbm, ⟨2, _⟩ => ⟨S4x8x64x8192, .f32⟩
  | .hbm, ⟨3, _⟩ => ⟨S_, .f32⟩
  | .hbm, ⟨4, _⟩ => ⟨S4x8x8192, .f32⟩
  | .hbm, ⟨5, _⟩ => ⟨S_, .f32⟩
  | .hbm, ⟨6, _⟩ => ⟨S4x8x8192, .f32⟩
  | .hbm, ⟨7, _⟩ => ⟨S4x8x8192, .f32⟩
  | .hbm, ⟨8, _⟩ => ⟨S4x8x1x8192, .f32⟩
  | .hbm, ⟨9, _⟩ => ⟨S4x8x64x8192, .f32⟩
  | .hbm, ⟨10, _⟩ => ⟨S4x8x64x8192, .f32⟩
  | .hbm, ⟨11, _⟩ => ⟨S4x8x64x8192, .f32⟩
  | .hbm, ⟨12, _⟩ => ⟨S_, .f32⟩
  | .hbm, ⟨13, _⟩ => ⟨S4x8x8192, .f32⟩
  | .hbm, ⟨14, _⟩ => ⟨S4x8x1x8192, .f32⟩
  | .hbm, ⟨15, _⟩ => ⟨S4x8x64x8192, .f32⟩
  | .hbm, ⟨16, _⟩ => ⟨S4x8x64x8192, .f32⟩
  | .hbm, ⟨17, _⟩ => ⟨S_, .f32⟩
  | .hbm, ⟨18, _⟩ => ⟨S4x8x64x8192, .f32⟩
  | .hbm, ⟨19, _⟩ => ⟨S4x8x64x8192, .f32⟩
  | .hbm, ⟨20, _⟩ => ⟨S_, .f32⟩
  | .hbm, ⟨21, _⟩ => ⟨S4x8x64, .f32⟩
  | .hbm, ⟨22, _⟩ => ⟨S_, .f32⟩
  | .hbm, ⟨23, _⟩ => ⟨S4x8x64, .f32⟩
  | .hbm, ⟨24, _⟩ => ⟨S4x8x64, .f32⟩
  | .hbm, ⟨25, _⟩ => ⟨S4x8x64x1, .f32⟩
  | .hbm, ⟨26, _⟩ => ⟨S4x8x64x8192, .f32⟩
  | .hbm, ⟨27, _⟩ => ⟨S4x8x64x8192, .f32⟩
  | .hbm, ⟨28, _⟩ => ⟨S4x8x64x8192, .f32⟩
  | .hbm, ⟨29, _⟩ => ⟨S_, .f32⟩
  | .hbm, ⟨30, _⟩ => ⟨S4x8x64, .f32⟩
  | .hbm, ⟨31, _⟩ => ⟨S4x8x64x1, .f32⟩
  | .hbm, ⟨32, _⟩ => ⟨S4x8x64x8192, .f32⟩
  | .hbm, ⟨33, _⟩ => ⟨S4x8x64x8192, .f32⟩
  | .hbm, ⟨34, _⟩ => ⟨S4x8x64x64, .f32⟩
  | .hbm, ⟨35, _⟩ => ⟨S4x8x64x8192, .f32⟩
  | _, _ => ⟨S4x8x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S4x8x64x8192_S4x8x8192_d2 : S4x8x64x8192.ReducesTo [2] S4x8x8192
  h_S_ : 0 < S_.numel
  bcast_S_S4x8x8192 : S_.BroadcastsInDim S4x8x8192 (![] : Fin 0 → Fin S4x8x8192.rank)
  bcast_S4x8x8192_S4x8x1x8192_0_1_3 : S4x8x8192.BroadcastsInDim S4x8x1x8192 (![0, 1, 3] : Fin 3 → Fin S4x8x1x8192.rank)
  bcast_S4x8x1x8192_S4x8x64x8192_0_1_2_3 : S4x8x1x8192.BroadcastsInDim S4x8x64x8192 (![0, 1, 2, 3] : Fin 4 → Fin S4x8x64x8192.rank)
  bcast_S_S4x8x64x8192 : S_.BroadcastsInDim S4x8x64x8192 (![] : Fin 0 → Fin S4x8x64x8192.rank)
  reducesTo_S4x8x64x8192_S4x8x64_d3 : S4x8x64x8192.ReducesTo [3] S4x8x64
  bcast_S_S4x8x64 : S_.BroadcastsInDim S4x8x64 (![] : Fin 0 → Fin S4x8x64.rank)
  bcast_S4x8x64_S4x8x64x1_0_1_2 : S4x8x64.BroadcastsInDim S4x8x64x1 (![0, 1, 2] : Fin 3 → Fin S4x8x64x1.rank)
  bcast_S4x8x64x1_S4x8x64x8192_0_1_2_3 : S4x8x64x1.BroadcastsInDim S4x8x64x8192 (![0, 1, 2, 3] : Fin 4 → Fin S4x8x64x8192.rank)
  dot_S4x8x64x8192_S4x8x64x8192_S4x8x64x64_3_3_2_2_01_01_wf : DotDims.WF S4x8x64x8192 S4x8x64x8192 S4x8x64x64 [3] [3] [2] [2] [0, 1] [0, 1]
  dot_S4x8x64x64_S4x8x64x8192_S4x8x64x8192_2_2_3_3_01_01_wf : DotDims.WF S4x8x64x64 S4x8x64x8192 S4x8x64x8192 [2] [2] [3] [3] [0, 1] [0, 1]

variable [Facts₀]

def dot_S4x8x64x8192_S4x8x64x8192_S4x8x64x64_3_3_2_2_01_01 : DotDims S4x8x64x8192 S4x8x64x8192 S4x8x64x64 where
  lhsContracting := [3]
  rhsContracting := [3]
  lhsNonContracting := [2]
  rhsNonContracting := [2]
  lhsBatch := [0, 1]
  rhsBatch := [0, 1]
  wf := dot_S4x8x64x8192_S4x8x64x8192_S4x8x64x64_3_3_2_2_01_01_wf
def dot_S4x8x64x64_S4x8x64x8192_S4x8x64x8192_2_2_3_3_01_01 : DotDims S4x8x64x64 S4x8x64x8192 S4x8x64x8192 where
  lhsContracting := [2]
  rhsContracting := [2]
  lhsNonContracting := [3]
  rhsNonContracting := [3]
  lhsBatch := [0, 1]
  rhsBatch := [0, 1]
  wf := dot_S4x8x64x64_S4x8x64x8192_S4x8x64x8192_2_2_3_3_01_01_wf

class Facts : Prop extends Facts₀ where

variable [Facts]
-- ==== Proof.Attend.lean ====
/-
  Linear attention on one [64, 8192] slice, as plain functions on the extended reals.

  For feature index `i` and sequence index `s`:
    * `colSoft q i s` is the softmax of `q` down the feature axis (the column `s` fixed), times 1/8;
    * `rowSoft k i s` is the softmax of `k` along the sequence axis (the row `i` fixed);
    * `context k v i j = Σ_s rowSoft k i s · v j s`;
    * `attend q k v j s = Σ_i context k v i j · colSoft q i s`.
  Each softmax subtracts the maximum first; the maximum is the fold of `max` from −∞, joined once more with −∞,
  exactly as both programs spell it. The constants stay bit patterns: the same word stands on both sides and is
  never evaluated.
-/
import Idealize.ShloMosaic.PureOps.Ideal
import Idealize.ShloMosaic.PureOps.Ideal.Laws
import Idealize.ShloMosaic.Lib.ValueIdx

noncomputable section

namespace Cert.Attend

open Idealize.ShloMosaic

/-- The f32 pattern of −∞ at the ideal values. -/
abbrev negInf : EReal := Ideal.ofBits .f32 0xFF800000#32
/-- The f32 pattern of 1/8 at the ideal values. -/
abbrev eighth : EReal := Ideal.ofBits .f32 0x3E000000#32

/-- The maximum of column `s` over the 64 features. -/
def colMax (q : Fin 64 → Fin 8192 → EReal) (s : Fin 8192) : EReal :=
  max negInf ((Finset.univ : Finset (Fin 64)).fold max negInf (fun i => q i s))

/-- The shifted exponential of an entry of column `s`. -/
def colExp (q : Fin 64 → Fin 8192 → EReal) (i : Fin 64) (s : Fin 8192) : EReal :=
  Ideal.exp (q i s - colMax q s)

/-- Softmax down the feature axis, scaled by 1/8. -/
def colSoft (q : Fin 64 → Fin 8192 → EReal) (i : Fin 64) (s : Fin 8192) : EReal :=
  Ideal.div (colExp q i s) (∑ i' : Fin 64, colExp q i' s) * eighth

/-- The maximum of row `i` over the 8192 sequence positions. -/
def rowMax (k : Fin 64 → Fin 8192 → EReal) (i : Fin 64) : EReal :=
  max negInf ((Finset.univ : Finset (Fin 8192)).fold max negInf (fun s => k i s))

/-- The shifted exponential of an entry of row `i`. -/
def rowExp (k : Fin 64 → Fin 8192 → EReal) (i : Fin 64) (s : Fin 8192) : EReal :=
  Ideal.exp (k i s - rowMax k i)

/-- Softmax along the sequence axis. -/
def rowSoft (k : Fin 64 → Fin 8192 → EReal) (i : Fin 64) (s : Fin 8192) : EReal :=
  Ideal.div (rowExp k i s) (∑ s' : Fin 8192, rowExp k i s')

/-- The 64 × 64 context matrix: keys against values, contracted over the sequence. -/
def context (k v : Fin 64 → Fin 8192 → EReal) (i j : Fin 64) : EReal :=
  ∑ s : Fin 8192, rowSoft k i s * v j s

/-- The attention output: the context against the queries, contracted over the key feature. -/
def attend (q k v : Fin 64 → Fin 8192 → EReal) (j : Fin 64) (s : Fin 8192) : EReal :=
  ∑ i : Fin 64, context k v i j * colSoft q i s

open Idealize.ShloMosaic.ValueIdx in
/-- Slice `(b, n)` of a [4, 8, 64, 8192] array: a [64, 8192] matrix. -/
def slice4 (x : (⟨4, ![4, 8, 64, 8192]⟩ : Shape).Idx → EReal) (b : Fin 4) (n : Fin 8) : Fin 64 → Fin 8192 → EReal :=
  fun i s => x (ix4 b n i s)

open Idealize.ShloMosaic.ValueIdx in
/-- Slice `t` of a [32, 64, 8192] array. -/
def slice3 (x : (⟨3, ![32, 64, 8192]⟩ : Shape).Idx → EReal) (t : Fin 32) : Fin 64 → Fin 8192 → EReal :=
  fun i s => x (ix3 t i s)

open Idealize.ShloMosaic.ValueIdx in
/-- The one matrix of a [1, 64, 8192] block. -/
def block1 (x : (⟨3, ![1, 64, 8192]⟩ : Shape).Idx → EReal) : Fin 64 → Fin 8192 → EReal :=
  fun i s => x (ix3 0 i s)

/-- The whole result over [4, 8, 64, 8192]: at `(b, n, j, s)` the attention of the `(b, n)` slices at `(j, s)`. -/
def attend4 (q k v : (⟨4, ![4, 8, 64, 8192]⟩ : Shape).Idx → EReal) : (⟨4, ![4, 8, 64, 8192]⟩ : Shape).Idx → EReal :=
  fun i => attend (slice4 q ⟨(i 0).val, (i 0).isLt⟩ ⟨(i 1).val, (i 1).isLt⟩)
    (slice4 k ⟨(i 0).val, (i 0).isLt⟩ ⟨(i 1).val, (i 1).isLt⟩)
    (slice4 v ⟨(i 0).val, (i 0).isLt⟩ ⟨(i 1).val, (i 1).isLt⟩) ⟨(i 2).val, (i 2).isLt⟩ ⟨(i 3).val, (i 3).isLt⟩

/-- The same over the 32 merged slices of [32, 64, 8192] arrays. -/
def attend3 (q k v : (⟨3, ![32, 64, 8192]⟩ : Shape).Idx → EReal) : (⟨3, ![32, 64, 8192]⟩ : Shape).Idx → EReal :=
  fun i => attend (slice3 q ⟨(i 0).val, (i 0).isLt⟩) (slice3 k ⟨(i 0).val, (i 0).isLt⟩) (slice3 v ⟨(i 0).val, (i 0).isLt⟩)
    ⟨(i 1).val, (i 1).isLt⟩ ⟨(i 2).val, (i 2).isLt⟩

end Cert.Attend

end
-- ==== Proof.RefAttend.lean ====
/-
  The reference, read at an index: its result at `(b, n, j, s)` is `attend` of the `(b, n)` slices of its three
  arguments at `(j, s)`. Each stage is read where the next one needs it: the column maximum, the shifted
  exponential, the column sum and the scaled quotient for the queries; the same along rows for the keys; then the two
  contractions, each a sum over its one contracted coordinate within the slice the batch coordinates fix.
-/
import proofs.«100383_j66125316489931_1_alg».proof.Proof.Gen.ReferenceIdeal.Read
import proofs.«100383_j66125316489931_1_alg».proof.Proof.Attend

noncomputable section

namespace Cert.ReferenceIdeal.RefAttend

open Cert.ReferenceIdeal Cert.ReferenceIdeal.Gen Cert.ReferenceIdeal.Read Idealize.ShloMosaic Idealize.ShloMosaic.ValueIdx
open Cert.Attend

local macro "idx3" : tactic =>
  `(tactic| (funext a; apply Fin.ext; match a with | ⟨0, _⟩ => rfl | ⟨1, _⟩ => rfl | ⟨2, _⟩ => rfl))
local macro "idx4" : tactic =>
  `(tactic| (funext a; apply Fin.ext; match a with | ⟨0, _⟩ => rfl | ⟨1, _⟩ => rfl | ⟨2, _⟩ => rfl | ⟨3, _⟩ => rfl))

variable (q k v : (⟨S4x8x64x8192, .f32⟩ : BufTy).Contents (Elt Ideal)) (b : Fin 4) (n : Fin 8)

/-! ## The queries: softmax down the feature axis -/

/-- The reduce over axis 2 at `(b, n, s)` is the fold of `max` over the 64 features of column `s`. -/
theorem max_q (s : Fin 8192) : val_main_v2 (F := Ideal) q (ix3 b n s) = colMax (slice4 q b n) s := by
  rw [val_main_v2_apply, val_main_v1_apply, val_main_cst_0_apply]
  unfold val_main_v0 colMax
  have h := Host.reduce_eq_fold_single (FloatOps.maximumf (F := Ideal) (φ := .f32)) q (val_main_cst (F := Ideal))
    reducesTo_S4x8x64x8192_S4x8x8192_d2 (by decide) h_S_ (ix3 b n s)
  have e : (q ∘ (by decide : S4x8x64x8192.Reduces [2] S4x8x8192).lift (ix3 b n s)) = fun i : Fin 64 => slice4 q b n i s :=
    funext fun i => congrArg q (by idx4)
  refine congrArg (max negInf) (h.trans ?_)
  rw [e]
  rfl

theorem exp_q (i : Fin 64) (s : Fin 8192) : val_main_v6 (F := Ideal) q (ix4 b n i s) = colExp (slice4 q b n) i s := by
  rw [val_main_v6_apply, val_main_v5_apply, val_main_v4_apply, val_main_v3_apply]
  have e : idx_main_v3 (idx_main_v4 (ix4 b n i s)) = ix3 b n s := by idx3
  rw [e, max_q]
  rfl

theorem sum_q (s : Fin 8192) : val_main_v7 (F := Ideal) q (ix3 b n s) = ∑ i : Fin 64, colExp (slice4 q b n) i s := by
  rw [val_main_v7_apply, val_main_cst_1_apply]
  show Ideal.ofBits .f32 0x00000000#32 + _ = _
  rw [Ideal.ofBits_zero_f32, zero_add]
  refine Finset.sum_congr rfl fun i _ => ?_
  have e : idx_main_v7 (ix3 b n s) i = ix4 b n i s := by idx4
  rw [e, exp_q]

theorem soft_q (i : Fin 64) (s : Fin 8192) : val_main_v12 (F := Ideal) q (ix4 b n i s) = colSoft (slice4 q b n) i s := by
  rw [val_main_v12_apply, val_main_v10_apply, val_main_v9_apply, val_main_v8_apply, val_main_v11_apply, val_main_cst_2_apply]
  have e : idx_main_v8 (idx_main_v9 (ix4 b n i s)) = ix3 b n s := by idx3
  rw [e, exp_q, sum_q]
  rfl

/-! ## The keys: softmax along the sequence axis -/

theorem max_k (i : Fin 64) : val_main_v15 (F := Ideal) k (ix3 b n i) = rowMax (slice4 k b n) i := by
  rw [val_main_v15_apply, val_main_v14_apply, val_main_cst_4_apply]
  unfold val_main_v13 rowMax
  have h := Host.reduce_eq_fold_single (FloatOps.maximumf (F := Ideal) (φ := .f32)) k (val_main_cst_3 (F := Ideal))
    reducesTo_S4x8x64x8192_S4x8x64_d3 (by decide) h_S_ (ix3 b n i)
  have e : (k ∘ (by decide : S4x8x64x8192.Reduces [3] S4x8x64).lift (ix3 b n i)) = fun s : Fin 8192 => slice4 k b n i s :=
    funext fun s => congrArg k (by idx4)
  refine congrArg (max negInf) (h.trans ?_)
  rw [e]
  rfl

theorem exp_k (i : Fin 64) (s : Fin 8192) : val_main_v19 (F := Ideal) k (ix4 b n i s) = rowExp (slice4 k b n) i s := by
  rw [val_main_v19_apply, val_main_v18_apply, val_main_v17_apply, val_main_v16_apply]
  have e : idx_main_v16 (idx_main_v17 (ix4 b n i s)) = ix3 b n i := by idx3
  rw [e, max_k]
  rfl

theorem sum_k (i : Fin 64) : val_main_v20 (F := Ideal) k (ix3 b n i) = ∑ s : Fin 8192, rowExp (slice4 k b n) i s := by
  rw [val_main_v20_apply, val_main_cst_5_apply]
  show Ideal.ofBits .f32 0x00000000#32 + _ = _
  rw [Ideal.ofBits_zero_f32, zero_add]
  refine Finset.sum_congr rfl fun s _ => ?_
  have e : idx_main_v20 (ix3 b n i) s = ix4 b n i s := by idx4
  rw [e, exp_k]

theorem soft_k (i : Fin 64) (s : Fin 8192) : val_main_v23 (F := Ideal) k (ix4 b n i s) = rowSoft (slice4 k b n) i s := by
  rw [val_main_v23_apply, val_main_v22_apply, val_main_v21_apply]
  have e : idx_main_v21 (idx_main_v22 (ix4 b n i s)) = ix3 b n i := by idx3
  rw [e, exp_k, sum_k]
  rfl

/-! ## The two contractions -/

theorem ctx_kv (i j : Fin 64) : val_main_v24 (F := Ideal) k v (ix4 b n i j) = context (slice4 k b n) (slice4 v b n) i j := by
  rw [val_main_v24_apply]
  refine Finset.sum_congr rfl fun s _ => ?_
  have el : lidx_main_v24 (ix4 b n i j) s = ix4 b n i s := by idx4
  have er : ridx_main_v24 (ix4 b n i j) s = ix4 b n j s := by idx4
  rw [el, er, soft_k]
  rfl

/-- The reference's result at `(b, n, j, s)`. -/
theorem result_at (j : Fin 64) (s : Fin 8192) :
    val_main_v25 (F := Ideal) q k v (ix4 b n j s) = attend (slice4 q b n) (slice4 k b n) (slice4 v b n) j s := by
  rw [val_main_v25_apply]
  refine Finset.sum_congr rfl fun i _ => ?_
  have el : lidx_main_v25 (ix4 b n j s) i = ix4 b n i j := by idx4
  have er : ridx_main_v25 (ix4 b n j s) i = ix4 b n i s := by idx4
  rw [el, er, ctx_kv, soft_q]

/-- The reference's result array is `attend4` of its three arguments. -/
theorem result_eq : val_main_v25 (F := Ideal) q k v = attend4 q k v := by
  funext i
  obtain ⟨b, n, j, s, rfl⟩ : ∃ (b : Fin 4) (n : Fin 8) (j : Fin 64) (s : Fin 8192), i = ix4 b n j s :=
    ⟨i 0, i 1, i 2, i 3, eq_ix4 i⟩
  exact result_at q k v b n j s

end Cert.ReferenceIdeal.RefAttend

end
-- ==== Proof.PayAttend.lean ====
/-
  The kernel body's arithmetic, read at an index: the payload of one grid point at `(j, s)` is `attend` of the
  three loaded blocks. The body works on the [64, 8192] matrix of each [1, 64, 8192] block: a column softmax of the
  queries (maximum and sum over the 64 rows, broadcast back down the rows, times 1/8), a row softmax of the keys (maximum
  and sum along the 8192 columns, broadcast back along the columns), the 64 × 64 product of keys and values contracted
  over the columns, and its product with the queries contracted over the rows. At the ideal values the roundings to
  bf16 on the way into the matrix unit are the identity, and each product into a zero accumulator is a plain sum.
-/
import proofs.«100383_j66125316489931_1_alg».proof.Proof.Gen.KernelIdeal.Skeleton
import proofs.«100383_j66125316489931_1_alg».proof.Proof.Attend
import Idealize.ShloMosaic.Lib.Pipeline.Value
import Idealize.ShloMosaic.Lib.ValueIdx
import Idealize.ShloMosaic.PureOps.Ideal.Laws

noncomputable section

namespace Cert.KernelIdeal.PayAttend

open Cert.KernelIdeal Cert.KernelIdeal.Gen Idealize.ShloMosaic Idealize.ShloMosaic.ValueIdx
open Cert.Attend

local macro "idx2" : tactic =>
  `(tactic| (funext a; apply Fin.ext; match a with | ⟨0, _⟩ => rfl | ⟨1, _⟩ => rfl))

/-! ## Layout: the block as a matrix, a row or a column spread over the matrix -/

/-- The [64, 8192] view of a [1, 64, 8192] block reads the block's one matrix. -/
theorem dropUnit_at (x : S1x64x8192.Idx → EReal) (h : S1x64x8192.ShapeCasts S64x8192) (i : Fin 64) (s : Fin 8192) :
    shapeCast S64x8192 x h (ix2 i s) = x (ix3 0 i s) :=
  shapeCast_apply x h (ix2 i s) (ix3 0 i s) (by
    rw [Shape.rowMajor_val_three, Shape.rowMajor_val_two]
    show ((0 : ℕ) * 64 + i.val) * 8192 + s.val = i.val * 8192 + s.val
    omega)

/-- A vector over the columns, made a one-row matrix and repeated down the rows, reads the vector at the column. -/
theorem overRows_at (w : S8192.Idx → EReal) (h1 : S8192.ShapeCasts S1x8192) (h2 : S1x8192.Broadcasts S64x8192)
    (i : Fin 64) (s : Fin 8192) :
    broadcastTo S64x8192 (shapeCast S1x8192 w h1) h2 (ix2 i s) = w (ix1 s) :=
  (broadcastTo_apply (shapeCast S1x8192 w h1) h2 (ix2 i s) (ix2 0 s) (fun a => by
    match a with
    | ⟨0, _⟩ => show (0 : ℕ) = if (1 : ℕ) = 1 then 0 else i.val; rw [if_pos rfl]
    | ⟨1, _⟩ => show s.val = if (8192 : ℕ) = 1 then 0 else s.val; rw [if_neg (by decide)])).trans
  (shapeCast_apply w h1 (ix2 0 s) (ix1 s) (by
    rw [Shape.rowMajor_val_one, Shape.rowMajor_val_two]
    show s.val = (0 : ℕ) * 8192 + s.val
    omega))

/-- A vector over the rows, made a one-column matrix and repeated along the columns, reads the vector at the row. -/
theorem overCols_at (w : S64.Idx → EReal) (h1 : S64.ShapeCasts S64x1) (h2 : S64x1.Broadcasts S64x8192)
    (i : Fin 64) (s : Fin 8192) :
    broadcastTo S64x8192 (shapeCast S64x1 w h1) h2 (ix2 i s) = w (ix1 i) :=
  (broadcastTo_apply (shapeCast S64x1 w h1) h2 (ix2 i s) (ix2 i 0) (fun a => by
    match a with
    | ⟨0, _⟩ => show i.val = if (64 : ℕ) = 1 then 0 else i.val; rw [if_neg (by decide)]
    | ⟨1, _⟩ => show (0 : ℕ) = if (1 : ℕ) = 1 then 0 else s.val; rw [if_pos rfl])).trans
  (shapeCast_apply w h1 (ix2 i 0) (ix1 i) (by
    rw [Shape.rowMajor_val_one, Shape.rowMajor_val_two]
    show i.val = i.val * 1 + (0 : ℕ)
    omega))

/-! ## Reductions over one axis of the matrix -/

theorem maxRows_at (v : FVec Ideal S64x8192 .f32) (h : S64x8192.Reduces [0] S8192) (hφ : FKind.Formats .f32)
    (hacc : (0xFF800000#32 : BitVec FTy.f32.bits) = FKind.maximumf.neutral .f32 hφ) (s : Fin 8192) :
    multiReduction .maximumf [0] S8192 v 0xFF800000#32 h hφ hacc (ix1 s)
      = (Finset.univ : Finset (Fin 64)).fold max negInf (fun i => v (ix2 i s)) :=
  (Ideal.multiReduction_maximumf_single v _ h hφ hacc (ix1 s)).trans
    (congrArg (fun f => (Finset.univ : Finset (Fin 64)).fold max negInf f) (funext fun i => congrArg v (by idx2)))

theorem sumRows_at (v : FVec Ideal S64x8192 .f32) (h : S64x8192.Reduces [0] S8192) (hφ : FKind.Formats .f32)
    (hacc : (0x00000000#32 : BitVec FTy.f32.bits) = FKind.add.neutral .f32 hφ) (s : Fin 8192) :
    multiReduction .add [0] S8192 v 0x00000000#32 h hφ hacc (ix1 s) = ∑ i : Fin 64, v (ix2 i s) :=
  (Ideal.multiReduction_add_single v _ h hφ hacc (ix1 s)).trans
    (Finset.sum_congr rfl fun i _ => congrArg v (by idx2))

theorem maxCols_at (v : FVec Ideal S64x8192 .f32) (h : S64x8192.Reduces [1] S64) (hφ : FKind.Formats .f32)
    (hacc : (0xFF800000#32 : BitVec FTy.f32.bits) = FKind.maximumf.neutral .f32 hφ) (i : Fin 64) :
    multiReduction .maximumf [1] S64 v 0xFF800000#32 h hφ hacc (ix1 i)
      = (Finset.univ : Finset (Fin 8192)).fold max negInf (fun s => v (ix2 i s)) :=
  (Ideal.multiReduction_maximumf_single v _ h hφ hacc (ix1 i)).trans
    (congrArg (fun f => (Finset.univ : Finset (Fin 8192)).fold max negInf f) (funext fun s => congrArg v (by idx2)))

theorem sumCols_at (v : FVec Ideal S64x8192 .f32) (h : S64x8192.Reduces [1] S64) (hφ : FKind.Formats .f32)
    (hacc : (0x00000000#32 : BitVec FTy.f32.bits) = FKind.add.neutral .f32 hφ) (i : Fin 64) :
    multiReduction .add [1] S64 v 0x00000000#32 h hφ hacc (ix1 i) = ∑ s : Fin 8192, v (ix2 i s) :=
  (Ideal.multiReduction_add_single v _ h hφ hacc (ix1 i)).trans
    (Finset.sum_congr rfl fun s _ => congrArg v (by idx2))

/-! ## The two matrix products into a zero accumulator -/

/-- In the first product the left operand's row is the result's row, -/
theorem kv_lhs_row (j : S64x64.Idx) (q : dot_S64x8192_S64x8192_S64x64_1_1_0_0_n_n.contr.Idx) :
    (dot_S64x8192_S64x8192_S64x64_1_1_0_0_n_n.lhsIdx j q 0).val = (j 0).val := by
  unfold DotDims.lhsIdx
  rw [dif_neg (show ¬(0 : Fin S64x8192.rank) ∈ dot_S64x8192_S64x8192_S64x64_1_1_0_0_n_n.lhsBatch by decide),
    dif_pos (show (0 : Fin S64x8192.rank) ∈ dot_S64x8192_S64x8192_S64x64_1_1_0_0_n_n.lhsNonContracting by decide)]
  rfl
/-- and the right operand's row is the result's column. -/
theorem kv_rhs_row (j : S64x64.Idx) (q : dot_S64x8192_S64x8192_S64x64_1_1_0_0_n_n.contr.Idx) :
    (dot_S64x8192_S64x8192_S64x64_1_1_0_0_n_n.rhsIdx j q 0).val = (j 1).val := by
  unfold DotDims.rhsIdx
  rw [dif_neg (show ¬(0 : Fin S64x8192.rank) ∈ dot_S64x8192_S64x8192_S64x64_1_1_0_0_n_n.rhsBatch by decide),
    dif_pos (show (0 : Fin S64x8192.rank) ∈ dot_S64x8192_S64x8192_S64x64_1_1_0_0_n_n.rhsNonContracting by decide)]
  rfl
/-- In the second product the left operand's column is the result's row, -/
theorem cq_lhs_col (j : S64x8192.Idx) (q : dot_S64x64_S64x8192_S64x8192_0_0_1_1_n_n.contr.Idx) :
    (dot_S64x64_S64x8192_S64x8192_0_0_1_1_n_n.lhsIdx j q 1).val = (j 0).val := by
  unfold DotDims.lhsIdx
  rw [dif_neg (show ¬(1 : Fin S64x64.rank) ∈ dot_S64x64_S64x8192_S64x8192_0_0_1_1_n_n.lhsBatch by decide),
    dif_pos (show (1 : Fin S64x64.rank) ∈ dot_S64x64_S64x8192_S64x8192_0_0_1_1_n_n.lhsNonContracting by decide)]
  rfl
/-- and the right operand's column is the result's column. -/
theorem cq_rhs_col (j : S64x8192.Idx) (q : dot_S64x64_S64x8192_S64x8192_0_0_1_1_n_n.contr.Idx) :
    (dot_S64x64_S64x8192_S64x8192_0_0_1_1_n_n.rhsIdx j q 1).val = (j 1).val := by
  unfold DotDims.rhsIdx
  rw [dif_neg (show ¬(1 : Fin S64x8192.rank) ∈ dot_S64x64_S64x8192_S64x8192_0_0_1_1_n_n.rhsBatch by decide),
    dif_pos (show (1 : Fin S64x8192.rank) ∈ dot_S64x64_S64x8192_S64x8192_0_0_1_1_n_n.rhsNonContracting by decide)]
  rfl

/-- Keys against values: entry `(i, j)` is the sum over the columns `s` of `a (i, s) · b (j, s)`. -/
theorem keysValues_at (a b : FVec Ideal S64x8192 .bf16) (i j : Fin 64) :
    matmul dot_S64x8192_S64x8192_S64x64_1_1_0_0_n_n none a b (constant S64x64 .f32 0x00000000#32) (ix2 i j)
      = ∑ s : Fin 8192, a (ix2 i s) * b (ix2 j s) := by
  simp only [matmul]
  rw [Ideal.matmul_constant_zero_apply,
    ← Equiv.sum_comp (contrEquiv1 dot_S64x8192_S64x8192_S64x64_1_1_0_0_n_n 8192 rfl rfl).symm]
  refine Finset.sum_congr rfl fun s _ => ?_
  have hk := contrEquiv1_symm_val dot_S64x8192_S64x8192_S64x64_1_1_0_0_n_n 8192 rfl rfl s
  have el : dot_S64x8192_S64x8192_S64x64_1_1_0_0_n_n.lhsIdx (ix2 i j)
      ((contrEquiv1 dot_S64x8192_S64x8192_S64x64_1_1_0_0_n_n 8192 rfl rfl).symm s) = ix2 i s :=
    funext fun ax => Fin.ext (by
      match ax with
      | ⟨0, _⟩ => exact kv_lhs_row _ _
      | ⟨1, _⟩ => exact (dot_S64x8192_S64x8192_S64x64_1_1_0_0_n_n.lhsIdx_val_of_single rfl _ _).trans hk)
  have er : dot_S64x8192_S64x8192_S64x64_1_1_0_0_n_n.rhsIdx (ix2 i j)
      ((contrEquiv1 dot_S64x8192_S64x8192_S64x64_1_1_0_0_n_n 8192 rfl rfl).symm s) = ix2 j s :=
    funext fun ax => Fin.ext (by
      match ax with
      | ⟨0, _⟩ => exact kv_rhs_row _ _
      | ⟨1, _⟩ => exact (dot_S64x8192_S64x8192_S64x64_1_1_0_0_n_n.rhsIdx_val_of_single rfl _ _).trans hk)
  rw [el, er]

/-- The context against the queries: entry `(j, s)` is the sum over the rows `i` of `c (i, j) · b (i, s)`. -/
theorem contextQueries_at (c : FVec Ideal S64x64 .bf16) (b : FVec Ideal S64x8192 .bf16) (j : Fin 64) (s : Fin 8192) :
    matmul dot_S64x64_S64x8192_S64x8192_0_0_1_1_n_n none c b (constant S64x8192 .f32 0x00000000#32) (ix2 j s)
      = ∑ i : Fin 64, c (ix2 i j) * b (ix2 i s) := by
  simp only [matmul]
  rw [Ideal.matmul_constant_zero_apply,
    ← Equiv.sum_comp (contrEquiv1 dot_S64x64_S64x8192_S64x8192_0_0_1_1_n_n 64 rfl rfl).symm]
  refine Finset.sum_congr rfl fun i _ => ?_
  have hk := contrEquiv1_symm_val dot_S64x64_S64x8192_S64x8192_0_0_1_1_n_n 64 rfl rfl i
  have el : dot_S64x64_S64x8192_S64x8192_0_0_1_1_n_n.lhsIdx (ix2 j s)
      ((contrEquiv1 dot_S64x64_S64x8192_S64x8192_0_0_1_1_n_n 64 rfl rfl).symm i) = ix2 i j :=
    funext fun ax => Fin.ext (by
      match ax with
      | ⟨0, _⟩ => exact (dot_S64x64_S64x8192_S64x8192_0_0_1_1_n_n.lhsIdx_val_of_single rfl _ _).trans hk
      | ⟨1, _⟩ => exact cq_lhs_col _ _)
  have er : dot_S64x64_S64x8192_S64x8192_0_0_1_1_n_n.rhsIdx (ix2 j s)
      ((contrEquiv1 dot_S64x64_S64x8192_S64x8192_0_0_1_1_n_n 64 rfl rfl).symm i) = ix2 i s :=
    funext fun ax => Fin.ext (by
      match ax with
      | ⟨0, _⟩ => exact (dot_S64x64_S64x8192_S64x8192_0_0_1_1_n_n.rhsIdx_val_of_single rfl _ _).trans hk
      | ⟨1, _⟩ => exact cq_rhs_col _ _)
  rw [el, er]

/-! ## The stages of the body, as vectors of a loaded block -/

section Stages
variable (x : Vec Ideal S1x64x8192 .f32)

/-- The block's matrix. -/
abbrev mat : FVec Ideal S64x8192 .f32 := shapeCast S64x8192 x shapeCasts_S1x64x8192_S64x8192

theorem mat_at (i : Fin 64) (s : Fin 8192) : mat x (ix2 i s) = block1 x i s :=
  dropUnit_at x _ i s

/-- The column maxima (over the 64 rows), joined with −∞. -/
abbrev colMaxV : FVec Ideal S8192 .f32 :=
  maximumf (broadcast S8192 (Scalar.ofBits .f32 0xFF800000#32))
    (multiReduction .maximumf [0] S8192 (mat x) 0xFF800000#32 reduces_S64x8192_S8192 (.inl rfl) rfl)

theorem colMaxV_at (s : Fin 8192) : colMaxV x (ix1 s) = colMax (block1 x) s := by
  unfold colMax
  refine congrArg (max negInf) ((maxRows_at (mat x) _ _ _ s).trans ?_)
  exact congrArg (fun f => (Finset.univ : Finset (Fin 64)).fold max negInf f) (funext fun i => mat_at x i s)

/-- The exponentials shifted by the column maxima. -/
abbrev colExpV : FVec Ideal S64x8192 .f32 :=
  exp (subf (mat x) (broadcastTo S64x8192 (shapeCast S1x8192 (colMaxV x) shapeCasts_S8192_S1x8192) broadcasts_S1x8192_S64x8192))

theorem colExpV_at (i : Fin 64) (s : Fin 8192) : colExpV x (ix2 i s) = colExp (block1 x) i s := by
  unfold colExp
  show Ideal.exp (mat x (ix2 i s) - broadcastTo S64x8192 (shapeCast S1x8192 (colMaxV x) shapeCasts_S8192_S1x8192) broadcasts_S1x8192_S64x8192 (ix2 i s)) = _
  rw [overRows_at (colMaxV x) _ _ i s, colMaxV_at, mat_at]

/-- The column softmax, times 1/8. -/
abbrev colSoftV : FVec Ideal S64x8192 .f32 :=
  mulf (divf (colExpV x) (broadcastTo S64x8192 (shapeCast S1x8192
      (multiReduction .add [0] S8192 (colExpV x) 0x00000000#32 reduces_S64x8192_S8192 (.inl rfl) rfl)
      shapeCasts_S8192_S1x8192) broadcasts_S1x8192_S64x8192))
    (broadcast S64x8192 (Scalar.ofBits .f32 0x3E000000#32))

theorem colSoftV_at (i : Fin 64) (s : Fin 8192) : colSoftV x (ix2 i s) = colSoft (block1 x) i s := by
  unfold colSoft
  show Ideal.div (colExpV x (ix2 i s)) (broadcastTo S64x8192 (shapeCast S1x8192
      (multiReduction .add [0] S8192 (colExpV x) 0x00000000#32 reduces_S64x8192_S8192 (.inl rfl) rfl)
      shapeCasts_S8192_S1x8192) broadcasts_S1x8192_S64x8192 (ix2 i s)) * eighth = _
  exact congrArg₂ (fun a b => Ideal.div a b * eighth) (colExpV_at x i s)
    ((overRows_at _ _ _ i s).trans ((sumRows_at (colExpV x) _ _ _ s).trans
      (Finset.sum_congr rfl fun i' _ => colExpV_at x i' s)))

/-- The row maxima (along the 8192 columns), joined with −∞. -/
abbrev rowMaxV : FVec Ideal S64 .f32 :=
  maximumf (broadcast S64 (Scalar.ofBits .f32 0xFF800000#32))
    (multiReduction .maximumf [1] S64 (mat x) 0xFF800000#32 reduces_S64x8192_S64 (.inl rfl) rfl)

theorem rowMaxV_at (i : Fin 64) : rowMaxV x (ix1 i) = rowMax (block1 x) i := by
  unfold rowMax
  refine congrArg (max negInf) ((maxCols_at (mat x) _ _ _ i).trans ?_)
  exact congrArg (fun f => (Finset.univ : Finset (Fin 8192)).fold max negInf f) (funext fun s => mat_at x i s)

/-- The exponentials shifted by the row maxima. -/
abbrev rowExpV : FVec Ideal S64x8192 .f32 :=
  exp (subf (mat x) (broadcastTo S64x8192 (shapeCast S64x1 (rowMaxV x) shapeCasts_S64_S64x1) broadcasts_S64x1_S64x8192))

theorem rowExpV_at (i : Fin 64) (s : Fin 8192) : rowExpV x (ix2 i s) = rowExp (block1 x) i s := by
  unfold rowExp
  show Ideal.exp (mat x (ix2 i s) - broadcastTo S64x8192 (shapeCast S64x1 (rowMaxV x) shapeCasts_S64_S64x1) broadcasts_S64x1_S64x8192 (ix2 i s)) = _
  rw [overCols_at (rowMaxV x) _ _ i s, rowMaxV_at, mat_at]

/-- The row softmax. -/
abbrev rowSoftV : FVec Ideal S64x8192 .f32 :=
  divf (rowExpV x) (broadcastTo S64x8192 (shapeCast S64x1
      (multiReduction .add [1] S64 (rowExpV x) 0x00000000#32 reduces_S64x8192_S64 (.inl rfl) rfl)
      shapeCasts_S64_S64x1) broadcasts_S64x1_S64x8192)

theorem rowSoftV_at (i : Fin 64) (s : Fin 8192) : rowSoftV x (ix2 i s) = rowSoft (block1 x) i s := by
  unfold rowSoft
  show Ideal.div (rowExpV x (ix2 i s)) (broadcastTo S64x8192 (shapeCast S64x1
      (multiReduction .add [1] S64 (rowExpV x) 0x00000000#32 reduces_S64x8192_S64 (.inl rfl) rfl)
      shapeCasts_S64_S64x1) broadcasts_S64x1_S64x8192 (ix2 i s)) = _
  exact congrArg₂ (fun a b => Ideal.div a b) (rowExpV_at x i s)
    ((overCols_at _ _ _ i s).trans ((sumCols_at (rowExpV x) _ _ _ i).trans
      (Finset.sum_congr rfl fun s' _ => rowExpV_at x i s')))

end Stages

/-! ## The payload -/

/-- The body's value is the two products of the three stages. -/
theorem pay_eq (x0 x1 x2 : Vec Ideal S1x64x8192 .f32) :
    k0_pay2 (F := Ideal) x0 x1 x2
      = matmul dot_S64x64_S64x8192_S64x8192_0_0_1_1_n_n none
          (truncf .bf16 (matmul dot_S64x8192_S64x8192_S64x64_1_1_0_0_n_n none
              (truncf .bf16 (rowSoftV x1) bitsLt_bf16_f32) (truncf .bf16 (mat x2) bitsLt_bf16_f32)
              (constant S64x64 .f32 0x00000000#32)) bitsLt_bf16_f32)
          (truncf .bf16 (colSoftV x0) bitsLt_bf16_f32) (constant S64x8192 .f32 0x00000000#32) := rfl

/-- The payload at `(j, s)` is the attention of the three blocks' matrices. -/
theorem pay_at (x0 x1 x2 : Vec Ideal S1x64x8192 .f32) (j : Fin 64) (s : Fin 8192) :
    k0_pay2 (F := Ideal) x0 x1 x2 (ix2 j s) = attend (block1 x0) (block1 x1) (block1 x2) j s := by
  rw [pay_eq, contextQueries_at]
  unfold attend
  refine Finset.sum_congr rfl fun i _ => ?_
  show matmul dot_S64x8192_S64x8192_S64x64_1_1_0_0_n_n none
      (truncf .bf16 (rowSoftV x1) bitsLt_bf16_f32) (truncf .bf16 (mat x2) bitsLt_bf16_f32)
      (constant S64x64 .f32 0x00000000#32) (ix2 i j) * colSoftV x0 (ix2 i s) = _
  rw [keysValues_at, colSoftV_at]
  unfold context
  refine congrArg (· * colSoft (block1 x0) i s) (Finset.sum_congr rfl fun s' _ => ?_)
  show rowSoftV x1 (ix2 i s') * mat x2 (ix2 j s') = _
  rw [rowSoftV_at, mat_at]

end Cert.KernelIdeal.PayAttend

end
-- ==== Proof.KernelValue.lean ====
/-
  The kernel's result array. The grid has 32 points; point `t` stages slice `t` of each of the three merged
  [32, 64, 8192] arrays and writes slice `t` of the output, so what point `t` writes back is block `t` of one
  whole-array function, `attend3` of the three merged arrays. The 32 blocks tile the output. Before the region each
  argument is merged from [4, 8, 64, 8192] to [32, 64, 8192], slice `(b, n)` becoming slice `8·b + n`; after it the
  output is split back the same way, so the result is `attend4` of the arguments.
-/
import proofs.«100383_j66125316489931_1_alg».proof.Proof.Gen.KernelIdeal.Frame
import proofs.«100383_j66125316489931_1_alg».proof.Proof.PayAttend
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Attend

variable (m : (ℓ : Loc nD τ sig) → Buf (Elt Ideal) ℓ) (ρ : Dev nD → PrngReg)

/-! ## Merging and splitting the two leading axes -/

/-- Slice `8·b + n` of the merged array is slice `(b, n)` of the array. -/
theorem merged_slice (x : S4x8x64x8192.Idx → EReal) (h : S4x8x64x8192.ShapeCasts S32x64x8192) (b : Fin 4) (n : Fin 8)
    (t : Fin 32) (ht : t.val = b.val * 8 + n.val) : slice3 (shapeCast S32x64x8192 x h) t = slice4 x b n := by
  funext i s
  exact shapeCast_apply x h (ix3 t i s) (ix4 b n i s) (by
    rw [Shape.rowMajor_val_four, Shape.rowMajor_val_three]
    show ((b.val * 8 + n.val) * 64 + i.val) * 8192 + s.val = (t.val * 64 + i.val) * 8192 + s.val
    rw [ht])

/-- Splitting the merged result back: `attend3` of the merged arrays, split, is `attend4` of the arrays. -/
theorem split_attend3 (q k v : S4x8x64x8192.Idx → EReal) (h : S4x8x64x8192.ShapeCasts S32x64x8192)
    (h' : S32x64x8192.ShapeCasts S4x8x64x8192) :
    shapeCast S4x8x64x8192 (attend3 (shapeCast S32x64x8192 q h) (shapeCast S32x64x8192 k h) (shapeCast S32x64x8192 v h)) h'
      = attend4 q k v := by
  funext i
  obtain ⟨b, n, j, s, rfl⟩ : ∃ (b : Fin 4) (n : Fin 8) (j : Fin 64) (s : Fin 8192), i = ix4 b n j s :=
    ⟨i 0, i 1, i 2, i 3, eq_ix4 i⟩
  have hlt : b.val * 8 + n.val < 32 := by have := b.isLt; have := n.isLt; omega
  refine (shapeCast_apply _ h' (ix4 b n j s) (ix3 ⟨b.val * 8 + n.val, hlt⟩ j s) (by
    rw [Shape.rowMajor_val_three, Shape.rowMajor_val_four]
    show ((b.val * 8 + n.val) * 64 + j.val) * 8192 + s.val = ((b.val * 8 + n.val) * 64 + j.val) * 8192 + s.val
    rfl)).trans ?_
  show attend (slice3 (shapeCast S32x64x8192 q h) ⟨b.val * 8 + n.val, hlt⟩)
      (slice3 (shapeCast S32x64x8192 k h) ⟨b.val * 8 + n.val, hlt⟩)
      (slice3 (shapeCast S32x64x8192 v h) ⟨b.val * 8 + n.val, hlt⟩) j s
    = attend (slice4 q b n) (slice4 k b n) (slice4 v b n) j s
  rw [merged_slice q h b n _ rfl, merged_slice k h b n _ rfl, merged_slice v h b n _ rfl]

/-- A matrix stored as a [1, 64, 8192] block reads the matrix. -/
theorem addUnit_at (y : S64x8192.Idx → EReal) (h : S64x8192.ShapeCasts S1x64x8192) (j : Fin 64) (s : Fin 8192) :
    shapeCast S1x64x8192 y h (ix3 0 j s) = y (ix2 j s) :=
  shapeCast_apply y h (ix3 0 j s) (ix2 j s) (by
    rw [Shape.rowMajor_val_three, Shape.rowMajor_val_two]
    show j.val * 8192 + s.val = ((0 : ℕ) * 64 + j.val) * 8192 + s.val
    omega)

/-- What one grid point stores, at `(0, j, s)` of its block: the attention of the three loaded blocks. -/
theorem block_value (x0 x1 x2 : Vec Ideal S1x64x8192 .f32) (j : Fin 64) (s : Fin 8192) :
    k0_pay1 (k0_pay2 x0 x1 x2) (ix3 0 j s) = attend (block1 x0) (block1 x1) (block1 x2) j s :=
  (addUnit_at (k0_pay2 x0 x1 x2) _ j s).trans (PayAttend.pay_at x0 x1 x2 j s)

/-! ## The windows' blocks -/

theorem hz : (![0, 0, 0] : Fin 3 → Nat) = fun _ => 0 := funext fun a => by fin_cases a <;> rfl

/-- The four index maps, decided over the 32 points: point `t` is at block `(t, 0, 0)` of every window. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ t.val < 32 :=
  (by decide +kernel : ∀ t : Fin grid0.N, _)

/-- Every slice of the output is some point's block. -/
theorem idx_onto : ∀ q : Fin 32, ∃ t : Fin cfg0.N, win0_3.index t = ![q.val, 0, 0] :=
  (by decide +kernel : ∀ q : Fin 32, ∃ t : Fin grid0.N, win0_3.index t = ![q.val, 0, 0])

/-- A grid point as a slice number. -/
abbrev pt (t : Fin cfg0.N) : Fin 32 := Fin.cast N_0 t

/-- An element of point `t`'s block of a window sits in slice `t` of the window's array, at the same row and column. -/
theorem emb_eq0 (t : Fin cfg0.N) (y : S1x64x8192.Idx) :
    ((cfg0.win 0).blk t).view.emb y = ix3 (pt t) ⟨(y 1).val, (y 1).isLt⟩ ⟨(y 2).val, (y 2).isLt⟩ := by
  obtain ⟨a0, a1, a2, b0, b1, b2, c0, c1, c2, d0, d1, d2, -⟩ := idx_facts t
  have hy0 : (y 0).val < 1 := (y 0).isLt
  funext a; apply Fin.ext
  match a with
  | ⟨0, _⟩ => show win0_0.index t (0 : Fin 3) * 1 + 1 * (y 0).val = t.val; omega
  | ⟨1, _⟩ => show win0_0.index t (1 : Fin 3) * 64 + 1 * (y 1).val = (y 1).val; omega
  | ⟨2, _⟩ => show win0_0.index t (2 : Fin 3) * 8192 + 1 * (y 2).val = (y 2).val; omega
theorem emb_eq1 (t : Fin cfg0.N) (y : S1x64x8192.Idx) :
    ((cfg0.win 1).blk t).view.emb y = ix3 (pt t) ⟨(y 1).val, (y 1).isLt⟩ ⟨(y 2).val, (y 2).isLt⟩ := by
  obtain ⟨a0, a1, a2, b0, b1, b2, c0, c1, c2, d0, d1, d2, -⟩ := idx_facts t
  have hy0 : (y 0).val < 1 := (y 0).isLt
  funext a; apply Fin.ext
  match a with
  | ⟨0, _⟩ => show win0_1.index t (0 : Fin 3) * 1 + 1 * (y 0).val = t.val; omega
  | ⟨1, _⟩ => show win0_1.index t (1 : Fin 3) * 64 + 1 * (y 1).val = (y 1).val; omega
  | ⟨2, _⟩ => show win0_1.index t (2 : Fin 3) * 8192 + 1 * (y 2).val = (y 2).val; omega
theorem emb_eq2 (t : Fin cfg0.N) (y : S1x64x8192.Idx) :
    ((cfg0.win 2).blk t).view.emb y = ix3 (pt t) ⟨(y 1).val, (y 1).isLt⟩ ⟨(y 2).val, (y 2).isLt⟩ := by
  obtain ⟨a0, a1, a2, b0, b1, b2, c0, c1, c2, d0, d1, d2, -⟩ := idx_facts t
  have hy0 : (y 0).val < 1 := (y 0).isLt
  funext a; apply Fin.ext
  match a with
  | ⟨0, _⟩ => show win0_2.index t (0 : Fin 3) * 1 + 1 * (y 0).val = t.val; omega
  | ⟨1, _⟩ => show win0_2.index t (1 : Fin 3) * 64 + 1 * (y 1).val = (y 1).val; omega
  | ⟨2, _⟩ => show win0_2.index t (2 : Fin 3) * 8192 + 1 * (y 2).val = (y 2).val; omega
theorem emb_eq3 (t : Fin cfg0.N) (y : S1x64x8192.Idx) :
    ((cfg0.win 3).blk t).view.emb y = ix3 (pt t) ⟨(y 1).val, (y 1).isLt⟩ ⟨(y 2).val, (y 2).isLt⟩ := by
  obtain ⟨a0, a1, a2, b0, b1, b2, c0, c1, c2, d0, d1, d2, -⟩ := idx_facts t
  have hy0 : (y 0).val < 1 := (y 0).isLt
  funext a; apply Fin.ext
  match a with
  | ⟨0, _⟩ => show win0_3.index t (0 : Fin 3) * 1 + 1 * (y 0).val = t.val; omega
  | ⟨1, _⟩ => show win0_3.index t (1 : Fin 3) * 64 + 1 * (y 1).val = (y 1).val; omega
  | ⟨2, _⟩ => show win0_3.index t (2 : Fin 3) * 8192 + 1 * (y 2).val = (y 2).val; omega

/-- So each input block's matrix is slice `t` of its merged array. -/
theorem iblk0_eq (c : Dev nD) (t : Fin cfg0.N) : block1 (iblk m c 0 t) = slice3 (V m c main_v0) (pt t) := by
  funext i s
  show V m c main_v0 (((cfg0.win 0).blk t).view.emb (ix3 0 i s)) = V m c main_v0 (ix3 (pt t) i s)
  exact congrArg (V m c main_v0) (emb_eq0 t (ix3 0 i s))
theorem iblk1_eq (c : Dev nD) (t : Fin cfg0.N) : block1 (iblk m c 1 t) = slice3 (V m c main_v1) (pt t) := by
  funext i s
  show V m c main_v1 (((cfg0.win 1).blk t).view.emb (ix3 0 i s)) = V m c main_v1 (ix3 (pt t) i s)
  exact congrArg (V m c main_v1) (emb_eq1 t (ix3 0 i s))
theorem iblk2_eq (c : Dev nD) (t : Fin cfg0.N) : block1 (iblk m c 2 t) = slice3 (V m c main_v2) (pt t) := by
  funext i s
  show V m c main_v2 (((cfg0.win 2).blk t).view.emb (ix3 0 i s)) = V m c main_v2 (ix3 (pt t) i s)
  exact congrArg (V m c main_v2) (emb_eq2 t (ix3 0 i s))

/-! ## What a point writes back, and the array after the region -/

/-- Point `t` writes back block `t` of `attend3` of the merged arrays. -/
theorem flushed_eq (c : Dev nD) (t : Fin cfg0.N) :
    (dats m 0 c).flushed 3 t
      = ((cfg0.win 3).blk t).view.read (Elt Ideal) (attend3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x64x8192) hz]
  funext y
  obtain ⟨a, j, s, rfl⟩ : ∃ (a : Fin 1) (j : Fin 64) (s : Fin 8192), y = ix3 a j s := ⟨y 0, y 1, y 2, eq_ix3 y⟩
  obtain rfl : a = 0 := Subsingleton.elim _ _
  show k0_pay1 (k0_pay2 (iblk m c 0 t) (iblk m c 1 t) (iblk m c 2 t)) (ix3 0 j s)
    = attend3 (V m c main_v0) (V m c main_v1) (V m c main_v2) (((cfg0.win 3).blk t).view.emb (ix3 0 j s))
  refine (block_value (iblk m c 0 t) (iblk m c 1 t) (iblk m c 2 t) j s).trans ?_
  rw [iblk0_eq m c t, iblk1_eq m c t, iblk2_eq m c t]
  exact (congrArg (attend3 (V m c main_v0) (V m c main_v1) (V m c main_v2)) (emb_eq3 t (ix3 0 j s))).symm

/-- An index of the output array is in point `t`'s block iff each coordinate is in the block's range on its axis. -/
theorem mem_blk (t : Fin cfg0.N) (i : S32x64x8192.Idx) :
    i ∈ ((cfg0.win 3).blk t).view.set ↔ ∀ a : Fin 3, win0_3.index t a * S1x64x8192.size a ≤ (i a).val
      ∧ (i a).val < win0_3.index t a * S1x64x8192.size a + S1x64x8192.size a := by
  show i ∈ ((View.whole main_v3).slice (win0_3.rect t)).set ↔ _
  rw [View.set_slice_whole, Rect.mem_set_unit]
  exact Iff.rfl

/-- The blocks cover the output: index `(t, j, s)` is in point `t`'s block. -/
theorem cover (i : S32x64x8192.Idx) :
    ∃ t : Fin cfg0.N, (cfg0.win 3).flush t = true ∧ i ∈ ((cfg0.win 3).blk t).view.set := by
  obtain ⟨t, ht⟩ := idx_onto ⟨(i 0).val, (i 0).isLt⟩
  have q0 : win0_3.index t (0 : Fin 3) = (i 0).val := congrFun ht 0
  have q1 : win0_3.index t (1 : Fin 3) = 0 := congrFun ht 1
  have q2 : win0_3.index t (2 : Fin 3) = 0 := congrFun ht 2
  have h1 : (i 1).val < 64 := (i 1).isLt
  have h2 : (i 2).val < 8192 := (i 2).isLt
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 8192 ≤ (i 2).val ∧ (i 2).val < win0_3.index t (2 : Fin 3) * 8192 + 8192; omega

/-- The output array after the region. -/
theorem final (c : Dev nD) :
    (dats m 0 c).arrAt 3 cfg0.N = attend3 (V m c main_v0) (V m c main_v1) (V m c main_v2) :=
  (dats m 0 c).arrAt_eq_of_cover 3 _ (fun t _ => flushed_eq m c t) cover

/-! ## The host operations around the region -/

theorem V_v0 (c : Dev nD) :
    V m c main_v0 = shapeCast S32x64x8192 (m ((c : Thread nD τ).loc main_arg0)) shapeCasts_S4x8x64x8192_S32x64x8192 := by
  show StableHlo.after hostOps0 (fun b => m (c, b)) (Proc.devRef .tc main_v0) = _
  after_results; rfl
theorem V_v1 (c : Dev nD) :
    V m c main_v1 = shapeCast S32x64x8192 (m ((c : Thread nD τ).loc main_arg1)) shapeCasts_S4x8x64x8192_S32x64x8192 := by
  show StableHlo.after hostOps0 (fun b => m (c, b)) (Proc.devRef .tc main_v1) = _
  after_results; rfl
theorem V_v2 (c : Dev nD) :
    V m c main_v2 = shapeCast S32x64x8192 (m ((c : Thread nD τ).loc main_arg2)) shapeCasts_S4x8x64x8192_S32x64x8192 := by
  show StableHlo.after hostOps0 (fun b => m (c, b)) (Proc.devRef .tc main_v2) = _
  after_results; rfl

/-- The program's result is the region's output array, split back to [4, 8, 64, 8192]. -/
theorem tail_v4 (c : Dev nD) :
    Pipeline.afterTail₀ cfgs (dats m) 0 (V0 m) [hostOps1] c main_v4
      = shapeCast S4x8x64x8192 ((dats m 0 c).arrAt 3 cfg0.N) shapeCasts_S32x64x8192_S4x8x64x8192 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N := Pipeline.withArrays_arr spec0 launch0.win.arr_inj c _ _ 3
  rw [hw]
  rfl

/-- The program's result as a function of its arguments. -/
theorem result_v4 (c : Dev nD) :
    Pipeline.afterTail₀ cfgs (dats m) 0 (V0 m) [hostOps1] c main_v4
      = attend4 (m ((c : Thread nD τ).loc main_arg0)) (m ((c : Thread nD τ).loc main_arg1)) (m ((c : Thread nD τ).loc main_arg2)) := by
  rw [tail_v4, final, V_v0, V_v1, V_v2]
  exact split_attend3 _ _ _ _ _

/-! ## The run -/

/-- Every weakly fair execution of the kernel program ends with its result at `attend4` of the arguments, the
    arguments unchanged. -/
theorem run : θ_run defs (onTc (τ := τ) (main (F := Ideal))) ⟨m, fun _ => 0, ρ⟩ fun r => ∀ c : Dev nD,
      r.2.mem ((c.tc : Thread nD τ).loc main_v4)
        = attend4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.lean ====
/-
  Linear attention, kernel against reference, at the ideal values.

  Both programs compute, on every `(b, n)` slice of q, k, v : [4, 8, 64, 8192],
      out[j, s] = Σ_i ( Σ_s' softmax_s'(k)[i, s'] · v[j, s'] ) · ( softmax_i(q)[i, s] / 8 ),
  the reference over the whole arrays with two batched contractions, the kernel one slice per grid point on the
  arrays merged to [32, 64, 8192] and split back. Operation by operation the two spell the same extended-real
  function (`Cert.Attend.attend`): the same maxima from −∞, the same exponentials, sums and quotients, the same 1/8,
  and contractions that are plain sums at the ideal values. No law beyond reading both sides at an index is needed,
  so the precondition is never opened.

  `Cert.ReferenceIdeal.RefAttend.result_eq` reads the reference's run; `Cert.KernelIdeal.KValue.run` reads the
  kernel's frame run (its body through `Cert.KernelIdeal.PayAttend.pay_at`). The ideal pass rewrote nothing, so
  `preserves` is trivial; the frames are the generated ones.
-/
import proofs.«100383_j66125316489931_1_alg».proof.Defs
import proofs.«100383_j66125316489931_1_alg».proof.Proof.Gen.Kernel
import proofs.«100383_j66125316489931_1_alg».proof.Proof.Gen.Kernel.Skeleton
import proofs.«100383_j66125316489931_1_alg».proof.Proof.Gen.Kernel.Launch
import proofs.«100383_j66125316489931_1_alg».proof.Proof.Gen.Kernel.Points
import proofs.«100383_j66125316489931_1_alg».proof.Proof.Gen.Kernel.Frame
import proofs.«100383_j66125316489931_1_alg».proof.Proof.Gen.KernelIdeal
import proofs.«100383_j66125316489931_1_alg».proof.Proof.Gen.KernelIdeal.Skeleton
import proofs.«100383_j66125316489931_1_alg».proof.Proof.Gen.KernelIdeal.Launch
import proofs.«100383_j66125316489931_1_alg».proof.Proof.Gen.KernelIdeal.Points
import proofs.«100383_j66125316489931_1_alg».proof.Proof.Gen.KernelIdeal.Frame
import proofs.«100383_j66125316489931_1_alg».proof.Proof.Gen.ReferenceIdeal
import proofs.«100383_j66125316489931_1_alg».proof.Proof.Gen.Pre_finite_inputs
import proofs.«100383_j66125316489931_1_alg».proof.Proof.Gen.ReferenceIdeal.Run
import proofs.«100383_j66125316489931_1_alg».proof.Proof.Gen.ReferenceIdeal.Read
import proofs.«100383_j66125316489931_1_alg».proof.Proof.Attend
import proofs.«100383_j66125316489931_1_alg».proof.Proof.RefAttend
import proofs.«100383_j66125316489931_1_alg».proof.Proof.PayAttend
import proofs.«100383_j66125316489931_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end at `attend4` of the (agreeing) arguments. -/
theorem algebraic : Cert.algebraic_KernelIdeal_ReferenceIdeal := by
  intro m ρ m' ρ' _ hagree
  refine ⟨fun c => Cert.Attend.attend4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v25_eq (F := Ideal) _ _ _).trans
    (Cert.ReferenceIdeal.RefAttend.result_eq _ _ _))).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
